-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S1x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  bitsLt_bf16_f32 : FTy.bits .bf16 < FTy.bits .f32
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S8192x4096_S4x2048x4096 : S8192x4096.ShapeCasts S4x2048x4096
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S4096x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | .hbm, ⟨32, _⟩ => ⟨S1x1x4096, .f32⟩
  | .hbm, ⟨33, _⟩ => ⟨S4x2048x4096, .f32⟩
  | .hbm, ⟨34, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The quantised linear layer, one output entry at a time, as a function on the extended reals.

  For a token row `x : Fin 4096 → EReal` the row's step is `s = max (max_k |x k|) c / 127` (`c` the small positive
  literal that keeps the step off zero), the row is quantised to `q k = min 127 (max (-128) (rne (x k / s)))`, and
  the entry for an output channel with integer weights `w k`, scale `ws` and bias `b` is
  `((∑ k, q k * w k) * s) * ws + b`.

  The kernel spells two things differently: the step as the product `max (max_k |x k|) c * (1/127)`, and the quotient
  `x k / s` as the product `x k * (1 / s)`. On the extended reals a quotient by a nonzero real is the product with
  its reciprocal, and `x * (1 / s) = x * s⁻¹ = x / s` as soon as `s ≠ 0`; the step is never zero because
  `max · c ≥ c > 0` and a product of two positive extended reals is positive. No finiteness is needed.
-/
import Idealize.ShloMosaic.PureOps.Ideal
import Idealize.ShloMosaic.PureOps.Ideal.Laws
import Idealize.ShloMosaic.Lib.ValueIdx

noncomputable section

namespace Cert.QuantLinear

open Idealize.ShloMosaic Idealize.ShloMosaic.ValueIdx

/-! ## The literals that are evaluated -/

/-- The word of `127.0` denotes the real 127. -/
theorem ofBits_127 : Ideal.ofBits .f32 0x42FE0000#32 = ((127 : ℝ) : EReal) := by
  simp [Ideal.ofBits, Ideal.ieee, -EReal.coe_mul]; norm_num

/-- The word of `1.0` denotes 1. -/
theorem ofBits_one : Ideal.ofBits .f32 0x3F800000#32 = (1 : EReal) := by
  simp [Ideal.ofBits, Ideal.ieee, -EReal.coe_mul]; norm_num

/-- The floor of the step is a positive number (about `1e-8`). -/
theorem ofBits_floor_pos : (0 : EReal) < Ideal.ofBits .f32 0x322BCC77#32 := by
  simp [Ideal.ofBits, Ideal.ieee, -EReal.coe_mul]

/-! ## The entry, in the reference's form -/

/-- The largest magnitude of a row, folded from `-∞`. -/
def rowMax (row : Fin 4096 → EReal) : EReal :=
  (Finset.univ : Finset (Fin 4096)).fold max (Ideal.ofBits .f32 0xFF800000#32) (fun k => max (row k) (-(row k)))

/-- The row's quantisation step: its largest magnitude, floored, over 127. -/
def step (row : Fin 4096 → EReal) : EReal :=
  Ideal.div (max (rowMax row) (Ideal.ofBits .f32 0x322BCC77#32)) (Ideal.ofBits .f32 0x42FE0000#32)

/-- Round to nearest even, then clip to `[-128, 127]`. -/
def clipRound (y : EReal) : EReal :=
  min (Ideal.ofBits .f32 0x42FE0000#32) (max (Ideal.ofBits .f32 0xC3000000#32) (Ideal.liftRound Ideal.roundHalfEven y))

/-- One output entry: the integer dot product of the quantised row with the channel's weights, rescaled by the
    row's step and the channel's scale, plus the channel's bias. -/
def entry (row wrow : Fin 4096 → EReal) (ws b : EReal) : EReal :=
  (∑ k : Fin 4096, clipRound (Ideal.div (row k) (step row)) * wrow k) * step row * ws + b

/-- The layer's result as one function of the four argument arrays (activations `[4, 2048, 4096]`, integer weights
    `[4096, 4096]`, channel scales and biases `[4096]`): entry `(bb, s, n)` is the entry of token row `(bb, s)`
    against channel `n`. -/
def result (x : (⟨3, ![4, 2048, 4096]⟩ : Shape).Idx → EReal) (wq : (⟨2, ![4096, 4096]⟩ : Shape).Idx → BitVec 32)
    (ws b : (⟨1, ![4096]⟩ : Shape).Idx → EReal) : (⟨3, ![4, 2048, 4096]⟩ : Shape).Idx → EReal :=
  fun i => entry (fun k : Fin 4096 => x (ix3 (i 0 : Fin 4) (i 1 : Fin 2048) k))
    (fun k : Fin 4096 => (((wq (ix2 (i 2 : Fin 4096) k)).toInt : ℝ) : EReal)) (ws (ix1 (i 2 : Fin 4096))) (b (ix1 (i 2 : Fin 4096)))

/-! ## The entry, in the kernel's form -/

/-- The step as a product with the reciprocal `inv` of 127. -/
def stepMul (inv : EReal) (row : Fin 4096 → EReal) : EReal :=
  max (rowMax row) (Ideal.ofBits .f32 0x322BCC77#32) * inv

/-- The entry with the row scaled by the reciprocal of the step before it is rounded. -/
def entryMul (inv : EReal) (row wrow : Fin 4096 → EReal) (ws b : EReal) : EReal :=
  (∑ k : Fin 4096, clipRound (row k * Ideal.div (Ideal.ofBits .f32 0x3F800000#32) (stepMul inv row)) * wrow k)
    * stepMul inv row * ws + b

/-! ## The law joining the two forms -/

/-- The product with `1/127` is the quotient by 127, at the infinities too. -/
theorem stepMul_eq (row : Fin 4096 → EReal) : stepMul ((1 / 127 : ℝ) : EReal) row = step row := by
  unfold stepMul step
  rw [ofBits_127, Ideal.div_coe (by norm_num : (127 : ℝ) ≠ 0)]

/-- The step is positive, so it is not zero: the floor is positive and so is `1/127`. -/
theorem step_ne_zero (row : Fin 4096 → EReal) : step row ≠ 0 := by
  rw [← stepMul_eq]
  unfold stepMul
  have h1 : (0 : EReal) < max (rowMax row) (Ideal.ofBits .f32 0x322BCC77#32) :=
    lt_of_lt_of_le ofBits_floor_pos (le_max_right _ _)
  have h2 : (0 : EReal) < ((1 / 127 : ℝ) : EReal) := EReal.coe_pos.2 (by norm_num)
  exact ne_of_gt (EReal.mul_pos h1 h2)

/-- Off zero, multiplying by the reciprocal is dividing. -/
theorem mul_one_div {s : EReal} (h : s ≠ 0) (x : EReal) : x * Ideal.div 1 s = Ideal.div x s := by
  unfold Ideal.div
  rw [if_neg h, if_neg h, one_mul]

/-- The kernel's form of the entry, at the reciprocal `1/127`, is the reference's. -/
theorem entryMul_eq (row wrow : Fin 4096 → EReal) (ws b : EReal) :
    entryMul ((1 / 127 : ℝ) : EReal) row wrow ws b = entry row wrow ws b := by
  unfold entryMul entry
  rw [stepMul_eq, ofBits_one]
  simp only [mul_one_div (step_ne_zero row)]

end Cert.QuantLinear

end
-- ==== Proof.RefValue.lean ====
/-
  The reference, read at an index, is the layer's entry.

  Reading the reference one operation at a time: at the index `(bb, s, n)` its result is
  `((∑ k, q k * w k) * step) * ws n + b n`, where the row is `x (bb, s, ·)`, `step` is the row's largest magnitude
  (a fold of `max` over the row from `-∞`), floored and divided by 127, `q k` is the row's entry over the step,
  rounded to even and clipped, and `w k` is the integer weight `(n, k)`. That is `Cert.QuantLinear.entry`.
-/
import proofs.«118805_j14611478741504_2_alg».proof.Proof.Gen.ReferenceIdeal.Read
import proofs.«118805_j14611478741504_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.QuantLinear
open Idealize.ShloMosaic Idealize.ShloMosaic.ValueIdx

/-- The source index over `(bb, s)` with `k` on the reduced axis is `(bb, s, k)`. -/
theorem lift_eq (h : S4x2048x4096.Reduces [2] S4x2048) (j : S4x2048.Idx) (k : Fin 4096) :
    h.lift j k = ix3 (j 0 : Fin 4) (j 1 : Fin 2048) k := by
  funext a; apply Fin.ext
  match a with
  | ⟨0, _⟩ => rfl
  | ⟨1, _⟩ => rfl
  | ⟨2, _⟩ => rfl

/-- The reduce over the last axis is the row's largest magnitude. -/
theorem rowMax_at (x0 : S4x2048x4096.Idx → EReal) (j : S4x2048.Idx) :
    val_main_v1 (F := Ideal) x0 j = rowMax (fun k : Fin 4096 => x0 (ix3 (j 0 : Fin 4) (j 1 : Fin 2048) k)) := by
  have h : S4x2048x4096.Reduces [2] S4x2048 := by decide
  unfold val_main_v1
  rw [Host.reduce_eq_fold_single FloatOps.maximumf _ _ reducesTo_S4x2048x4096_S4x2048_d2 h h_S_ j]
  show Finset.fold max (Ideal.ofBits .f32 0xFF800000#32)
      (fun k : Fin 4096 => max (x0 (h.lift j k)) (-(x0 (h.lift j k)))) Finset.univ = _
  simp only [lift_eq]
  rfl

/-- The stage that holds the step, at `(bb, s, 0)`, is the step of row `(bb, s)`. -/
theorem step_at (x0 : S4x2048x4096.Idx → EReal) (j : S4x2048x1.Idx) :
    val_main_v6 (F := Ideal) x0 j = step (fun k : Fin 4096 => x0 (ix3 (j 0 : Fin 4) (j 1 : Fin 2048) k)) := by
  rw [val_main_v6_apply, val_main_v4_apply, val_main_v2_apply, val_main_v3_apply, val_main_v5_apply,
    val_main_cst_0_apply, val_main_cst_1_apply, rowMax_at]
  rfl

/-- The quantised stage at `(bb, s, k)`: the row's entry over the row's step, rounded and clipped. -/
theorem quant_at (x0 : S4x2048x4096.Idx → EReal) (j : S4x2048x4096.Idx) :
    val_main_v10 (F := Ideal) x0 j
      = clipRound (Ideal.div (x0 j) (step (fun k : Fin 4096 => x0 (ix3 (j 0 : Fin 4) (j 1 : Fin 2048) k)))) := by
  rw [val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply, step_at]
  rfl

/-- The reference's last stage is `result`. -/
theorem val_eq (x0 : S4x2048x4096.Idx → EReal) (x1 : S4096x4096.Idx → BitVec 32) (x2 x3 : S4096.Idx → EReal) :
    val_main_v20 (F := Ideal) x0 x1 x2 x3 = result x0 x1 x2 x3 := by
  funext i
  obtain ⟨bb, s, n, rfl⟩ : ∃ (bb : Fin 4) (s : Fin 2048) (n : Fin 4096), i = ix3 bb s n := ⟨i 0, i 1, i 2, eq_ix3 i⟩
  have el : ∀ k : Fin 4096, lidx_main_v12 (ix3 bb s n) k = ix3 bb s k := fun k => funext fun a => Fin.ext (by
    match a with
    | ⟨0, _⟩ => rfl
    | ⟨1, _⟩ => rfl
    | ⟨2, _⟩ => rfl)
  have er : ∀ k : Fin 4096, ridx_main_v12 (ix3 bb s n) k = ix2 n k := fun k => funext fun a => Fin.ext (by
    match a with
    | ⟨0, _⟩ => rfl
    | ⟨1, _⟩ => rfl)
  have e2 : idx_main_v15 (idx_main_v16 (ix3 bb s n)) = ix1 n := funext fun a => Fin.ext (by
    match a with
    | ⟨0, _⟩ => rfl)
  have e3 : idx_main_v18 (idx_main_v19 (ix3 bb s n)) = ix1 n := funext fun a => Fin.ext (by
    match a with
    | ⟨0, _⟩ => rfl)
  rw [val_main_v20_apply, val_main_v17_apply, val_main_v14_apply, val_main_v12_apply, val_main_v13_apply,
    val_main_v16_apply, val_main_v15_apply, val_main_v19_apply, val_main_v18_apply, e2, e3, step_at]
  simp only [quant_at, val_main_v11_apply, el, er]
  rfl

end Cert.ReferenceIdeal.RefValue

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Payload.lean ====
/-
  The kernel body's stored value, read at an entry of the block.

  For a block of 128 token rows `x0`, the whole weight matrix `w` (its integers as extended reals), the row of
  channel scales `ws` and the row of biases `b`, the value the body stores at `(p, n)` is the layer's entry in the
  kernel's form (`Cert.QuantLinear.entryMul`) of row `p` of the block against row `n` of the weights: the lane
  reduction is the row's largest magnitude, the column of steps is broadcast along each row, the matrix product into a
  zero accumulator contracts the last axis of both operands, and the two single rows are broadcast down the block.
-/
import proofs.«118805_j14611478741504_2_alg».proof.Proof.Gen.KernelIdeal.Skeleton
import proofs.«118805_j14611478741504_2_alg».proof.Proof.Spec
import proofs.«118805_j14611478741504_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Payload

open Cert.KernelIdeal Cert.KernelIdeal.Gen Cert.QuantLinear Cert.ColumnLayout
open Idealize.ShloMosaic Idealize.ShloMosaic.ValueIdx

/-- The reciprocal the body multiplies by, as the program names it. -/
abbrev inv127 : EReal := Named.named (F := Ideal) κ "inv_127" (φ := .f32) 0x3C010204#32

/-- It denotes `1/127` exactly. -/
theorem inv127_eq : inv127 = ((1 / 127 : ℝ) : EReal) :=
  IdealRules.named_const.ideal_named_scalar _ _ _ _ rfl

/-! ## The column of steps -/

/-- The source index over row `p` with `k` on the reduced lane axis is `(p, k)`. -/
theorem lift_lane (h : S128x4096.Reduces [1] S128) (p : Fin 128) (k : Fin 4096) : h.lift (ix1 p) k = ix2 p k := by
  funext a; apply Fin.ext
  match a with
  | ⟨0, _⟩ => rfl
  | ⟨1, _⟩ => rfl

/-- The body's column of steps for a block of rows: the lane maximum of the magnitudes, as a column, floored, times
    the named reciprocal. -/
def stepCol (x : FVec Ideal S128x4096 .f32) : FVec Ideal S128x1 .f32 :=
  mulf (maximumf (shapeCast S128x1 (multiReduction (F := Ideal) .maximumf [1] S128 (absf x) 0xFF800000#32 reduces_S128x4096_S128 (.inl rfl) rfl) shapeCasts_S128_S128x1)
      (broadcast S128x1 (Scalar.ofBits (F := Ideal) .f32 0x322BCC77#32)))
    (broadcast S128x1 inv127)

/-- At row `p` it is the step of that row, as a product. -/
theorem stepCol_at (x : FVec Ideal S128x4096 .f32) (p : Fin 128) :
    stepCol x (ix2 p (0 : Fin 1)) = stepMul inv127 (fun k : Fin 4096 => x (ix2 p k)) := by
  unfold stepCol stepMul
  refine congrArg (fun y : EReal => max y (Ideal.ofBits .f32 0x322BCC77#32) * inv127) ?_
  refine (shapeCast_a_a1_apply _ shapeCasts_S128_S128x1 p (0 : Fin 1)).trans ?_
  refine (Ideal.multiReduction_maximumf_single (absf x) 0xFF800000#32 reduces_S128x4096_S128 (.inl rfl) rfl (ix1 p)).trans ?_
  unfold rowMax
  show Finset.fold max (Ideal.ofBits .f32 0xFF800000#32)
      (fun k : Fin 4096 => max (x (reduces_S128x4096_S128.lift (ix1 p) k)) (-(x (reduces_S128x4096_S128.lift (ix1 p) k)))) Finset.univ = _
  simp only [lift_lane]

/-! ## The quantised block -/

/-- The body's quantised block: each row times the reciprocal of its step, rounded to even and clipped. -/
def quantBlk (x : FVec Ideal S128x4096 .f32) : FVec Ideal S128x4096 .bf16 :=
  truncf .bf16 (minimumf (broadcast S128x4096 (Scalar.ofBits (F := Ideal) .f32 0x42FE0000#32))
    (maximumf (broadcast S128x4096 (Scalar.ofBits (F := Ideal) .f32 0xC3000000#32))
      (roundeven (mulf x (broadcastTo S128x4096 (divf (broadcast S128x1 (Scalar.ofBits (F := Ideal) .f32 0x3F800000#32)) (stepCol x)) broadcasts_S128x1_S128x4096))))) bitsLt_bf16_f32

/-- A scalar literal is its word's value. -/
theorem scalar_ofBits (b : BitVec 32) : Scalar.ofBits (F := Ideal) .f32 b = Ideal.ofBits .f32 b := rfl

/-- Rounding to even, entry by entry. -/
theorem roundeven_apply {s : Shape} (a : FVec Ideal s .f32) (i : s.Idx) :
    roundeven a i = Ideal.liftRound Ideal.roundHalfEven (a i) := rfl

theorem quantBlk_at (x : FVec Ideal S128x4096 .f32) (p : Fin 128) (k : Fin 4096) :
    quantBlk x (ix2 p k)
      = clipRound (x (ix2 p k) * Ideal.div (Ideal.ofBits .f32 0x3F800000#32) (stepMul inv127 (fun k' : Fin 4096 => x (ix2 p k')))) := by
  unfold quantBlk clipRound
  simp only [truncf_apply, minimumf_apply, maximumf_apply, broadcast_apply, roundeven_apply, mulf_apply, scalar_ofBits]
  rw [broadcastTo_a1_ab_apply]
  simp only [divf_apply, broadcast_apply, scalar_ofBits]
  rw [stepCol_at]

/-! ## The matrix product -/

theorem lhs_row (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem rhs_row (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl

/-- The product into a zero accumulator, at `(p, n)`: row `p` of the left operand against row `n` of the right one. -/
theorem matmul_at (l : FVec Ideal S128x4096 .bf16) (r : FVec Ideal S4096x4096 .bf16) (p : Fin 128) (n : Fin 4096) :
    matmul dot_S128x4096_S4096x4096_S128x4096_1_1_0_0_n_n none l r (constant S128x4096 .f32 0x00000000#32) (ix2 p n)
      = ∑ k : Fin 4096, l (ix2 p k) * r (ix2 n k) := by
  simp only [matmul]
  rw [Ideal.matmul_constant_zero_apply, ← Equiv.sum_comp (ValueIdx.contrEquiv1 dot_S128x4096_S4096x4096_S128x4096_1_1_0_0_n_n 4096 rfl rfl).symm]
  refine Finset.sum_congr rfl fun k _ => ?_
  have hk := ValueIdx.contrEquiv1_symm_val dot_S128x4096_S4096x4096_S128x4096_1_1_0_0_n_n 4096 rfl rfl k
  have el : dot_S128x4096_S4096x4096_S128x4096_1_1_0_0_n_n.lhsIdx (ix2 p n) ((ValueIdx.contrEquiv1 dot_S128x4096_S4096x4096_S128x4096_1_1_0_0_n_n 4096 rfl rfl).symm k) = ix2 p k := funext fun a => Fin.ext (by
    match a with
    | ⟨0, _⟩ => exact lhs_row _ _
    | ⟨1, _⟩ => exact (dot_S128x4096_S4096x4096_S128x4096_1_1_0_0_n_n.lhsIdx_val_of_single rfl _ _).trans hk)
  have er : dot_S128x4096_S4096x4096_S128x4096_1_1_0_0_n_n.rhsIdx (ix2 p n) ((ValueIdx.contrEquiv1 dot_S128x4096_S4096x4096_S128x4096_1_1_0_0_n_n 4096 rfl rfl).symm k) = ix2 n k := funext fun a => Fin.ext (by
    match a with
    | ⟨0, _⟩ => exact rhs_row _ _
    | ⟨1, _⟩ => exact (dot_S128x4096_S4096x4096_S128x4096_1_1_0_0_n_n.rhsIdx_val_of_single rfl _ _).trans hk)
  rw [el, er]

/-! ## The stored value -/

/-- What the body stores at `(p, n)` is the layer's entry, in the kernel's form, of row `p` against weight row `n`. -/
theorem pay_at (x0 : FVec Ideal S128x4096 .f32) (w : FVec Ideal S4096x4096 .bf16) (ws b : FVec Ideal S1x4096 .f32)
    (p : Fin 128) (n : Fin 4096) :
    k0_pay1 (F := Ideal) x0 w ws b (ix2 p n)
      = entryMul inv127 (fun k : Fin 4096 => x0 (ix2 p k)) (fun k : Fin 4096 => w (ix2 n k))
          (ws (ix2 (0 : Fin 1) n)) (b (ix2 (0 : Fin 1) n)) := by
  unfold k0_pay1
  simp only [shapeCast_self]
  show matmul dot_S128x4096_S4096x4096_S128x4096_1_1_0_0_n_n none (quantBlk x0) w (constant S128x4096 .f32 0x00000000#32) (ix2 p n)
        * broadcastTo S128x4096 (stepCol x0) broadcasts_S128x1_S128x4096 (ix2 p n)
        * broadcastTo S128x4096 ws broadcasts_S1x4096_S128x4096 (ix2 p n)
      + broadcastTo S128x4096 b broadcasts_S1x4096_S128x4096 (ix2 p n) = _
  rw [matmul_at, broadcastTo_a1_ab_apply, broadcastTo_1b_ab_apply, broadcastTo_1b_ab_apply, stepCol_at]
  simp only [quantBlk_at]
  rfl

/-- The same at any index of the block. -/
theorem pay_apply (x0 : FVec Ideal S128x4096 .f32) (w : FVec Ideal S4096x4096 .bf16) (ws b : FVec Ideal S1x4096 .f32)
    (j : S128x4096.Idx) :
    k0_pay1 (F := Ideal) x0 w ws b j
      = entryMul inv127 (fun k : Fin 4096 => x0 (ix2 (j 0 : Fin 128) k)) (fun k : Fin 4096 => w (ix2 (j 1 : Fin 4096) k))
          (ws (ix2 (0 : Fin 1) (j 1 : Fin 4096))) (b (ix2 (0 : Fin 1) (j 1 : Fin 4096))) := by
  obtain ⟨p, n, rfl⟩ : ∃ (p : Fin 128) (n : Fin 4096), j = ix2 p n := ⟨j 0, j 1, eq_ix2 j⟩
  exact pay_at x0 w ws b p n

end Cert.KernelIdeal.Payload

end
-- ==== Proof.Blocks.lean ====
/-
  From blocks to the region's output array.

  The region's output is an `[8192, 4096]` array written back 128 rows at a time: point `t` of the 64 writes rows
  `128 t … 128 t + 127`, all 4096 columns. The activations' window moves with it (the same rows of the reshaped
  activations), while the weights, the channel scales and the biases are the same whole arrays at every point. So
  what point `t` writes is block `t` of ONE function of the arrays the region finds: row `r`, column `n` is the
  layer's entry of row `r` of the activations against row `n` of the weights. The 64 blocks cover the array (row
  `r` lies in block `r / 128`), so after the run the array is that function.
-/
import proofs.«118805_j14611478741504_2_alg».proof.Proof.Gen.KernelIdeal.Frame
import proofs.«118805_j14611478741504_2_alg».proof.Proof.Payload
import Idealize.ShloMosaic.Lib.Pipeline.Value
import Idealize.ShloMosaic.Lib.ValueIdx

noncomputable section

namespace Cert.KernelIdeal.Blocks

open Cert.KernelIdeal Cert.KernelIdeal.Gen Cert.KernelIdeal.Payload Cert.QuantLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The region's output as one function of the arrays it finds: the reshaped activations `X`, the weights `W`, the
    single rows of channel scales `WS` and biases `B`. -/
def rowsOut (X : S8192x4096.Idx → EReal) (W : S4096x4096.Idx → EReal) (WS B : S1x4096.Idx → EReal) :
    S8192x4096.Idx → EReal :=
  fun i => entryMul inv127 (fun k : Fin 4096 => X (ix2 (i 0 : Fin 8192) k)) (fun k : Fin 4096 => W (ix2 (i 1 : Fin 4096) k))
    (WS (ix2 (0 : Fin 1) (i 1 : Fin 4096))) (B (ix2 (0 : Fin 1) (i 1 : Fin 4096)))

/-- The printed index maps over the grid: the activations' and the output's blocks are block `t` of the rows, every
    other window is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `rowsOut` of the arrays as the region finds them. -/
theorem flushed_eq (c : Dev nD) (t : Fin cfg0.N) :
    (dats m 0 c).flushed 4 t
      = ((cfg0.win 4).blk t).view.read (Elt Ideal) (rowsOut (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S128x4096) hz, View.ld_unit_zero (S := S4096x4096) hz, View.ld_unit_zero (S := S1x4096) hz]
  obtain ⟨e00, e01, e10, e11, e20, e21, e30, e31, e40, e41⟩ := idx_facts t
  funext j
  show k0_pay1 (F := Ideal) (iblk m c 0 t) (iblk m c 1 t) (iblk m c 2 t) (iblk m c 3 t) j
      = rowsOut (V m c main_v0) (V m c main_v1) (V m c main_v2) (V m c main_v3) (((cfg0.win 4).blk t).view.emb j)
  refine (pay_apply (iblk m c 0 t) (iblk m c 1 t) (iblk m c 2 t) (iblk m c 3 t) j).trans ?_
  have hj0 : (j 0).val < 128 := (j 0).isLt
  have hj1 : (j 1).val < 4096 := (j 1).isLt
  have h0 : ∀ k : Fin 4096, iblk m c 0 t (ix2 (j 0 : Fin 128) k)
      = V m c main_v0 (ix2 ((((cfg0.win 4).blk t).view.emb j) 0 : Fin 8192) k) := fun k => by
    show V m c main_v0 (((cfg0.win 0).blk t).view.emb (ix2 (j 0 : Fin 128) k)) = _
    refine congrArg (V m c main_v0) (funext fun a => Fin.ext ?_)
    match a with
    | ⟨0, _⟩ => show win0_0.index t (0 : Fin 2) * 128 + 1 * (j 0).val = win0_4.index t (0 : Fin 2) * 128 + 1 * (j 0).val; omega
    | ⟨1, _⟩ => show win0_0.index t (1 : Fin 2) * 4096 + 1 * k.val = k.val; omega
  have h1 : ∀ k : Fin 4096, iblk m c 1 t (ix2 (j 1 : Fin 4096) k)
      = V m c main_v1 (ix2 ((((cfg0.win 4).blk t).view.emb j) 1 : Fin 4096) k) := fun k => by
    show V m c main_v1 (((cfg0.win 1).blk t).view.emb (ix2 (j 1 : Fin 4096) k)) = _
    refine congrArg (V m c main_v1) (funext fun a => Fin.ext ?_)
    match a with
    | ⟨0, _⟩ => show win0_1.index t (0 : Fin 2) * 4096 + 1 * (j 1).val = win0_4.index t (1 : Fin 2) * 4096 + 1 * (j 1).val; omega
    | ⟨1, _⟩ => show win0_1.index t (1 : Fin 2) * 4096 + 1 * k.val = k.val; omega
  have h2 : iblk m c 2 t (ix2 (0 : Fin 1) (j 1 : Fin 4096))
      = V m c main_v2 (ix2 (0 : Fin 1) ((((cfg0.win 4).blk t).view.emb j) 1 : Fin 4096)) := by
    show V m c main_v2 (((cfg0.win 2).blk t).view.emb (ix2 (0 : Fin 1) (j 1 : Fin 4096))) = _
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 4096 + 1 * (j 1).val = win0_4.index t (1 : Fin 2) * 4096 + 1 * (j 1).val; omega
  have h3 : iblk m c 3 t (ix2 (0 : Fin 1) (j 1 : Fin 4096))
      = V m c main_v3 (ix2 (0 : Fin 1) ((((cfg0.win 4).blk t).view.emb j) 1 : Fin 4096)) := by
    show V m c main_v3 (((cfg0.win 3).blk t).view.emb (ix2 (0 : Fin 1) (j 1 : Fin 4096))) = _
    refine congrArg (V m c main_v3) (funext fun a => Fin.ext ?_)
    match a with
    | ⟨0, _⟩ => show win0_3.index t (0 : Fin 2) * 1 + 1 * 0 = 0; omega
    | ⟨1, _⟩ => show win0_3.index t (1 : Fin 2) * 4096 + 1 * (j 1).val = win0_4.index t (1 : Fin 2) * 4096 + 1 * (j 1).val; omega
  unfold rowsOut
  simp only [h0, h1]
  rw [h2, h3]

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v4).slice (win0_4.rect t)).set ↔ _
  rw [View.set_slice_whole, Rect.mem_set_unit]
  exact Iff.rfl

/-- Every index is in some point's block: row `r` is in block `r / 128`. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : grid0.N = 64 := N_0
  have ht : (i 0).val / 128 < cfg0.N := by show (i 0).val / 128 < grid0.N; rw [hN]; omega
  obtain ⟨-, -, -, -, -, -, -, -, e40, e41⟩ := idx_facts ⟨(i 0).val / 128, ht⟩
  refine ⟨⟨(i 0).val / 128, ht⟩, flush0_4 _, ?_⟩
  rw [mem_blk]
  intro a
  match a with
  | ⟨0, _⟩ =>
    show win0_4.index ⟨(i 0).val / 128, ht⟩ (0 : Fin 2) * 128 ≤ (i 0).val ∧ (i 0).val < win0_4.index ⟨(i 0).val / 128, ht⟩ (0 : Fin 2) * 128 + 128
    rw [e40]; show (i 0).val / 128 * 128 ≤ (i 0).val ∧ (i 0).val < (i 0).val / 128 * 128 + 128; omega
  | ⟨1, _⟩ =>
    show win0_4.index ⟨(i 0).val / 128, ht⟩ (1 : Fin 2) * 4096 ≤ (i 1).val ∧ (i 1).val < win0_4.index ⟨(i 0).val / 128, ht⟩ (1 : Fin 2) * 4096 + 4096
    rw [e41]; omega

/-- The region's output array after the run. -/
theorem final (c : Dev nD) :
    (dats m 0 c).arrAt 4 cfg0.N = rowsOut (V m c main_v0) (V m c main_v1) (V m c main_v2) (V m c main_v3) :=
  (dats m 0 c).arrAt_eq_of_cover 4 _ (fun t _ => flushed_eq m c t) cover

end Cert.KernelIdeal.Blocks

end
-- ==== Proof.KernelValue.lean ====
/-
  The kernel program's result as a function of its arguments.

  Before the region the program reshapes the activations `[4, 2048, 4096]` to `[8192, 4096]` (row `2048 bb + s` is token
  row `(bb, s)`), converts the integer weights to floats, and reshapes the channel scales and the biases to single
  rows `[1, 4096]`. After the region it reshapes the `[8192, 4096]` output back to `[4, 2048, 4096]`. A reshape keeps
  the row-major position, so entry `(bb, s, n)` of the result is entry `(2048 bb + s, n)` of the region's output,
  which is the layer's entry (in the kernel's form, hence by the law of the specification in the reference's form) of
  token row `(bb, s)` against channel `n`.
-/
import proofs.«118805_j14611478741504_2_alg».proof.Proof.Blocks
import Idealize.ShloMosaic.Lib.StableHlo.Run
import Idealize.ShloMosaic.Lib.ValueLayout

noncomputable section

namespace Cert.KernelIdeal.Whole

open Cert.KernelIdeal Cert.KernelIdeal.Gen Cert.KernelIdeal.Payload Cert.KernelIdeal.Blocks Cert.QuantLinear
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

/-- The activations, reshaped to rows. -/
theorem V_x (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results; rfl

/-- The weights, as floats. -/
theorem V_w (c : Dev nD) : (V m c main_v1 : S4096x4096.Idx → EReal)
    = sitofp (F := Ideal) .bf16 (m ((c : Thread nD τ).loc main_arg1)) := by
  show StableHlo.after hostOps0 (fun b => m (c, b)) (Proc.devRef .tc main_v1) = _
  after_results

/-- The channel scales, as a single row. -/
theorem V_ws (c : Dev nD) : (V m c main_v2 : S1x4096.Idx → EReal)
    = shapeCast S1x4096 (m ((c : Thread nD τ).loc main_arg2)) shapeCasts_S4096_S1x4096 := by
  show StableHlo.after hostOps0 (fun b => m (c, b)) (Proc.devRef .tc main_v2) = _
  after_results; rfl

/-- The biases, as a single row. -/
theorem V_b (c : Dev nD) : (V m c main_v3 : S1x4096.Idx → EReal)
    = shapeCast S1x4096 (m ((c : Thread nD τ).loc main_arg3)) shapeCasts_S4096_S1x4096 := by
  show StableHlo.after hostOps0 (fun b => m (c, b)) (Proc.devRef .tc main_v3) = _
  after_results; rfl

/-! ## The line after the region -/

/-- The program's result buffer after the last line: the region's output, reshaped. -/
theorem tail_eq (c : Dev nD) :
    Pipeline.afterTail₀ cfgs (dats m) 0 (V0 m) [hostOps1] c main_v5
      = shapeCast S4x2048x4096 (rowsOut (V m c main_v0) (V m c main_v1) (V m c main_v2) (V m c main_v3))
          shapeCasts_S8192x4096_S4x2048x4096 := by
  unfold Pipeline.afterTail₀
  show StableHlo.after hostOps1 _ (Proc.devRef .tc main_v5) = _
  after_results
  rw [(Pipeline.withArrays_arr spec0 launch0.win.arr_inj c _ _ 4).trans (final m c)]
  rfl

/-! ## The result, entry by entry -/

/-- The reshaped output is the layer's result of the four arguments. -/
theorem whole_eq (c : Dev nD) :
    shapeCast S4x2048x4096 (rowsOut (V m c main_v0) (V m c main_v1) (V m c main_v2) (V m c main_v3))
        shapeCasts_S8192x4096_S4x2048x4096
      = result (m ((c : Thread nD τ).loc main_arg0)) (m ((c : Thread nD τ).loc main_arg1))
          (m ((c : Thread nD τ).loc main_arg2)) (m ((c : Thread nD τ).loc main_arg3)) := by
  funext i
  obtain ⟨bb, s, n, rfl⟩ : ∃ (bb : Fin 4) (s : Fin 2048) (n : Fin 4096), i = ix3 bb s n := ⟨i 0, i 1, i 2, eq_ix3 i⟩
  have hr : bb.val * 2048 + s.val < 8192 := by have := bb.isLt; have := s.isLt; omega
  refine (shapeCast_apply _ shapeCasts_S8192x4096_S4x2048x4096 (ix3 bb s n) (ix2 (⟨bb.val * 2048 + s.val, hr⟩ : Fin 8192) n) ?_).trans ?_
  · rw [Shape.rowMajor_val_two, Shape.rowMajor_val_three]; rfl
  have hx : ∀ k : Fin 4096, V m c main_v0 (ix2 (⟨bb.val * 2048 + s.val, hr⟩ : Fin 8192) k)
      = m ((c : Thread nD τ).loc main_arg0) (ix3 bb s k) := fun k =>
    (congrFun (V_x m c) _).trans (shapeCast_apply _ shapeCasts_S4x2048x4096_S8192x4096 _ (ix3 bb s k)
      (by rw [Shape.rowMajor_val_two, Shape.rowMajor_val_three]; rfl))
  have hw : ∀ k : Fin 4096, V m c main_v1 (ix2 n k)
      = (((m ((c : Thread nD τ).loc main_arg1) (ix2 n k)).toInt : ℝ) : EReal) := fun k =>
    congrFun (V_w m c) _
  have hws : V m c main_v2 (ix2 (0 : Fin 1) n) = m ((c : Thread nD τ).loc main_arg2) (ix1 n) :=
    (congrFun (V_ws m c) _).trans (shapeCast_a_1a_apply _ shapeCasts_S4096_S1x4096 (0 : Fin 1) n)
  have hb : V m c main_v3 (ix2 (0 : Fin 1) n) = m ((c : Thread nD τ).loc main_arg3) (ix1 n) :=
    (congrFun (V_b m c) _).trans (shapeCast_a_1a_apply _ shapeCasts_S4096_S1x4096 (0 : Fin 1) n)
  unfold rowsOut result
  rw [inv127_eq, entryMul_eq]
  show entry (fun k : Fin 4096 => V m c main_v0 (ix2 (⟨bb.val * 2048 + s.val, hr⟩ : Fin 8192) k))
      (fun k : Fin 4096 => V m c main_v1 (ix2 n k)) (V m c main_v2 (ix2 (0 : Fin 1) n)) (V m c main_v3 (ix2 (0 : Fin 1) n))
    = entry (fun k : Fin 4096 => m ((c : Thread nD τ).loc main_arg0) (ix3 bb s k))
      (fun k : Fin 4096 => (((m ((c : Thread nD τ).loc main_arg1) (ix2 n k)).toInt : ℝ) : EReal))
      (m ((c : Thread nD τ).loc main_arg2) (ix1 n)) (m ((c : Thread nD τ).loc main_arg3) (ix1 n))
  simp only [hx, hw]
  rw [hws, hb]

/-! ## The run -/

/-- Every weakly fair execution of the program terminates with the result buffer at the layer's result of the four
    arguments, and the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans ((tail_eq m c).trans (whole_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Whole

end
-- ==== Proof.lean ====
/-
  A linear layer with 8-bit weights and dynamically quantised 8-bit activations: the kernel and its reference
  compute the same extended reals.

  For each token row `x` (4096 activations) both programs take the row's largest magnitude, floor it by a small
  positive literal, and divide by 127 to get the row's step `s`; quantise the row to
  `q k = min 127 (max (-128) (round-to-even (x k / s)))`; take the dot product of `q` with each output channel's
  integer weights; and return `((∑ k, q k * w k) * s) * scale + bias` for that channel.

  The kernel differs from the reference in spelling only. It multiplies by a constant named `1/127` where the
  reference divides by 127, and it multiplies the row by `1 / s` where the reference divides by `s`. On the extended
  reals a quotient by a nonzero real is the product with its reciprocal, and `x * (1 / s) = x / s` whenever
  `s ≠ 0`; the step is positive because its floor is, so the two programs agree on every input (the precondition is
  not used). The kernel works on the activations reshaped to 8192 rows, 128 rows per grid point with the whole weight
  matrix resident, and reshapes its output back; a reshape keeps row-major positions, so entry `(bb, s, n)` of the
  result is entry `(2048 bb + s, n)` of the kernel's output array. Its row maximum is a lane reduction and the
  reference's a host reduce: both are the fold of `max` over the row from `-∞`. Its matrix product into a zero
  accumulator and the reference's `dot_general` are the same sum over the contracted axis, and an integer converted to
  either float format is that integer.

  `Proof/Spec.lean` states the entry and proves the law between the two spellings; `Proof/RefValue.lean` reads the
  reference at an index; `Proof/Payload.lean` reads the kernel body's stored value at an index; `Proof/Blocks.lean`
  assembles the 64 written blocks into the output array; `Proof/KernelValue.lean` reads the reshapes around the
  region and states the kernel program's run.
-/
import proofs.«118805_j14611478741504_2_alg».proof.Defs
import proofs.«118805_j14611478741504_2_alg».proof.Proof.Gen.Kernel
import proofs.«118805_j14611478741504_2_alg».proof.Proof.Gen.Kernel.Skeleton
import proofs.«118805_j14611478741504_2_alg».proof.Proof.Gen.Kernel.Launch
import proofs.«118805_j14611478741504_2_alg».proof.Proof.Gen.Kernel.Points
import proofs.«118805_j14611478741504_2_alg».proof.Proof.Gen.Kernel.Frame
import proofs.«118805_j14611478741504_2_alg».proof.Proof.Gen.KernelIdeal
import proofs.«118805_j14611478741504_2_alg».proof.Proof.Gen.KernelIdeal.Skeleton
import proofs.«118805_j14611478741504_2_alg».proof.Proof.Gen.KernelIdeal.Launch
import proofs.«118805_j14611478741504_2_alg».proof.Proof.Gen.KernelIdeal.Points
import proofs.«118805_j14611478741504_2_alg».proof.Proof.Gen.KernelIdeal.Frame
import proofs.«118805_j14611478741504_2_alg».proof.Proof.Gen.ReferenceIdeal
import proofs.«118805_j14611478741504_2_alg».proof.Proof.Gen.ReferenceIdeal.Run
import proofs.«118805_j14611478741504_2_alg».proof.Proof.Gen.ReferenceIdeal.Read
import proofs.«118805_j14611478741504_2_alg».proof.Proof.Gen.Pre_finite_inputs
import proofs.«118805_j14611478741504_2_alg».proof.Proof.RefValue
import proofs.«118805_j14611478741504_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the constant named `inv_127` denotes `1/127`. -/
theorem preserves : Cert.preserves_Kernel_KernelIdeal :=
  IdealRules.named_const.statement Cert.KernelIdeal.κ "inv_127" .f32 0x3C010204#32 ((1 / 127 : ℝ) : EReal) rfl

/-- From memories agreeing on the arguments both programs end with the layer's result of those arguments. -/
theorem algebraic : Cert.algebraic_KernelIdeal_ReferenceIdeal := by
  intro m ρ m' ρ' _ hagree
  refine ⟨fun c => Cert.QuantLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.val_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
